-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x4096 : Shape := ⟨3, ![4, 8192, 4096]⟩
abbrev S4096 : Shape := ⟨1, ![4096]⟩
abbrev S_ : Shape := ⟨0, ![]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x8192x4096 .f32) (main_arg1 : FVec F S4096 .f32) : IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x8192x4096 : Shape := ⟨3, ![4, 8192, 4096]⟩
abbrev S4096 : Shape := ⟨1, ![4096]⟩
abbrev S1x4096 : Shape := ⟨2, ![1, 4096]⟩
abbrev S8192x4096 : Shape := ⟨2, ![8192, 4096]⟩
abbrev S4x128x4096 : Shape := ⟨3, ![4, 128, 4096]⟩
abbrev S128x4096 : Shape := ⟨2, ![128, 4096]⟩
abbrev S1x128x4096 : Shape := ⟨3, ![1, 128, 4096]⟩
abbrev S128 : Shape := ⟨1, ![128]⟩
abbrev S128x1 : Shape := ⟨2, ![128, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S4x128x4096, .f32⟩
  | .local _ .vmem, ⟨1, _⟩ => ⟨S4x128x4096, .f32⟩
  | .local _ .vmem, ⟨2, _⟩ => ⟨S1x4096, .f32⟩
  | .local _ .vmem, ⟨3, _⟩ => ⟨S128x4096, .f32⟩
  | .local _ .vmem, ⟨4, _⟩ => ⟨S128x4096, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S4x128x4096_S1x128x4096_0_0_0 : ∀ a, (![0, 0, 0] : Fin 3 → Nat) a + S1x128x4096.size a ≤ S4x128x4096.size a
  h_S1x128x4096 : 0 < S1x128x4096.numel
  shapeCasts_S1x128x4096_S128x4096 : S1x128x4096.ShapeCasts S128x4096
  inb_S4x128x4096_S1x128x4096_1_0_0 : ∀ a, (![1, 0, 0] : Fin 3 → Nat) a + S1x128x4096.size a ≤ S4x128x4096.size a
  inb_S4x128x4096_S1x128x4096_2_0_0 : ∀ a, (![2, 0, 0] : Fin 3 → Nat) a + S1x128x4096.size a ≤ S4x128x4096.size a
  inb_S4x128x4096_S1x128x4096_3_0_0 : ∀ a, (![3, 0, 0] : Fin 3 → Nat) a + S1x128x4096.size a ≤ S4x128x4096.size a
  reduces_S128x4096_S128 : S128x4096.Reduces [1] S128
  shapeCasts_S128_S128x1 : S128.ShapeCasts S128x1
  broadcasts_S128x1_S128x4096 : S128x1.Broadcasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S4x8192x4096.size a
  hwx0_0 : ∀ i : grid0.Coords, EltTy.bits .f32 = 32 ∨ (Rect.block (s := S4x8192x4096) S4x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)

variable [Facts₀]

abbrev win0_0 : Pipeline.Window sig grid0 :=
  Pipeline.Window.ofSpec (Memref.whole main_arg0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x4096 : Shape := ⟨3, ![4, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S4096, .f32⟩
  | .hbm, ⟨2, _⟩ => ⟨S_, .f32⟩
  | .hbm, ⟨3, _⟩ => ⟨S4x8192x4096, .f32⟩
  | .hbm, ⟨4, _⟩ => ⟨S4x8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S4x8192x4096 : S_.BroadcastsInDim S4x8192x4096 (![] : Fin 0 → Fin S4x8192x4096.rank)
  reducesTo_S4x8192x4096_S8192x4096_d0 : S4x8192x4096.ReducesTo [0] S8192x4096
  h_S_ : 0 < S_.numel
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.RmsSpec.lean ====
/-
  The function both programs compute, on the extended reals, index by index.

  The input X has four slices X[0..3] of shape [8192, 4096]; W is a vector of 4096 weights.  With
  relu a = max a 0 (the zero being the f32 zero word), the four rectified slices are added entry by entry,

      r(p, q) = ((relu X[0,p,q] + relu X[1,p,q]) + relu X[2,p,q]) + relu X[3,p,q],

  each row p is normalised by the reciprocal square root of its mean square plus a fixed epsilon,

      s(p) = rsqrt ((sum over q of r(p,q) * r(p,q)) / 4096 + eps),

  and the result is  (r(p, q) * s(p)) * W[q].  The divisor 4096 and eps are kept as the f32 words the
  programs carry (0x45800000, 0x358637BD): the same word on both sides is never evaluated.
-/
import Idealize.ShloMosaic.PureOps.Ideal.Laws
import Idealize.ShloMosaic.Lib.ValueIdx

noncomputable section

open scoped BigOperators

namespace Cert.RmsSpec

open Idealize.ShloMosaic Idealize.ShloMosaic.ValueIdx

/-- relu of one entry: its maximum with the f32 zero word. -/
def relu (a : EReal) : EReal := max a (Ideal.ofBits .f32 0x00000000#32)

/-- The four rectified slices added at (p, q), associated to the left. -/
def rsum (X : (⟨3, ![4, 8192, 4096]⟩ : Shape).Idx → EReal) (p : Fin 8192) (q : Fin 4096) : EReal :=
  relu (X (ix3 (0 : Fin 4) p q)) + relu (X (ix3 (1 : Fin 4) p q)) + relu (X (ix3 (2 : Fin 4) p q)) + relu (X (ix3 (3 : Fin 4) p q))

/-- The sum of squares along row p. -/
def sumSq (X : (⟨3, ![4, 8192, 4096]⟩ : Shape).Idx → EReal) (p : Fin 8192) : EReal :=
  ∑ q : Fin 4096, rsum X p q * rsum X p q

/-- Row p's normaliser: rsqrt (mean square + eps). -/
def scale (X : (⟨3, ![4, 8192, 4096]⟩ : Shape).Idx → EReal) (p : Fin 8192) : EReal :=
  Ideal.rsqrt (Ideal.div (sumSq X p) (Ideal.ofBits .f32 0x45800000#32) + Ideal.ofBits .f32 0x358637BD#32)

/-- The result at row p, column q. -/
def at_ (X : (⟨3, ![4, 8192, 4096]⟩ : Shape).Idx → EReal) (W : (⟨1, ![4096]⟩ : Shape).Idx → EReal)
    (p : Fin 8192) (q : Fin 4096) : EReal :=
  rsum X p q * scale X p * W (ix1 q)

/-- The whole result array. -/
def G (X : (⟨3, ![4, 8192, 4096]⟩ : Shape).Idx → EReal) (W : (⟨1, ![4096]⟩ : Shape).Idx → EReal) :
    (⟨2, ![8192, 4096]⟩ : Shape).Idx → EReal :=
  fun i => at_ X W (i 0) (i 1)

theorem G_apply (X : (⟨3, ![4, 8192, 4096]⟩ : Shape).Idx → EReal) (W : (⟨1, ![4096]⟩ : Shape).Idx → EReal)
    (p : Fin 8192) (q : Fin 4096) : G X W (ix2 p q) = at_ X W p q := rfl

/-- Adding the f32 zero word on the left changes nothing: the one law that joins a sum started from an
    initial zero with the bare sum. -/
theorem zero_word_add (a : EReal) : Ideal.ofBits .f32 0x00000000#32 + a = a := by
  rw [Ideal.ofBits_zero_f32, zero_add]

end Cert.RmsSpec

end
-- ==== Proof.ReferenceIsSpec.lean ====
/-
  The reference, read one operation at a time, is the specification `RmsSpec.G`.

  The host program rectifies X, sums it over its first axis starting from a zero, squares, sums each row starting
  from a zero, divides by 4096, adds eps, takes rsqrt, and multiplies back row by row and then by the weights
  column by column.  Its two sums carry an initial zero the specification does not have; `zero_word_add`
  removes it.  Everything else is the same operation on the same entries.
-/
import proofs.«113902_j69784628625430_2_alg».proof.Proof.Gen.ReferenceIdeal.Read
import proofs.«113902_j69784628625430_2_alg».proof.Proof.RmsSpec

noncomputable section

open scoped BigOperators

namespace Cert.ReferenceIsSpec

open Idealize.ShloMosaic Idealize.ShloMosaic.ValueIdx Cert.ReferenceIdeal Cert.ReferenceIdeal.Read Cert.RmsSpec

/-- The entry of slice k the first sum reads at (p, q). -/
theorem idx_slice (p : Fin 8192) (q : Fin 4096) (k : Fin 4) : idx_main_v1 (ix2 p q) k = ix3 k p q := by
  funext a; match a with | ⟨0, _⟩ => rfl | ⟨1, _⟩ => rfl | ⟨2, _⟩ => rfl

/-- The entry of row p the second sum reads at column k. -/
theorem idx_row (p : Fin 8192) (k : Fin 4096) : idx_main_v3 (ix1 p) k = ix2 p k := by
  funext a; match a with | ⟨0, _⟩ => rfl | ⟨1, _⟩ => rfl

/-- The row normaliser broadcast to (p, q) is row p's. -/
theorem idx_keep (p : Fin 8192) (q : Fin 4096) : idx_main_v4 (idx_main_v10 (ix2 p q)) = ix1 p := by
  funext a; match a with | ⟨0, _⟩ => rfl

/-- The weight broadcast to (p, q) is column q's. -/
theorem idx_weight (p : Fin 8192) (q : Fin 4096) : idx_main_v12 (idx_main_v13 (ix2 p q)) = ix1 q := by
  funext a; match a with | ⟨0, _⟩ => rfl

/-- The host's sum over the four rectified slices at (p, q) is `rsum`. -/
theorem slices (x0 : (⟨3, ![4, 8192, 4096]⟩ : Shape).Idx → EReal) (p : Fin 8192) (q : Fin 4096) :
    val_main_v1 (F := Ideal) x0 (ix2 p q) = rsum x0 p q := by
  rw [val_main_v1_apply, Fin.sum_univ_four]
  simp only [val_main_v0_apply, val_main_call0_v0_apply, val_main_call0_cst_apply, val_main_cst_apply, idx_slice]
  exact zero_word_add _

/-- The host's sum of squares along row p is `sumSq`. -/
theorem squares (x0 : (⟨3, ![4, 8192, 4096]⟩ : Shape).Idx → EReal) (p : Fin 8192) :
    val_main_v3 (F := Ideal) x0 (ix1 p) = sumSq x0 p := by
  rw [val_main_v3_apply]
  simp only [val_main_v2_apply, val_main_cst_0_apply, idx_row, slices]
  exact zero_word_add _

/-- The reference's result is the specification. -/
theorem result_eq (x0 : (⟨3, ![4, 8192, 4096]⟩ : Shape).Idx → EReal) (x1 : (⟨1, ![4096]⟩ : Shape).Idx → EReal) :
    val_main_v14 (F := Ideal) x0 x1 = G x0 x1 := by
  funext i
  obtain ⟨p, q, rfl⟩ : ∃ (p : Fin 8192) (q : Fin 4096), i = ix2 p q := ⟨i 0, i 1, eq_ix2 i⟩
  rw [val_main_v14_apply, val_main_v11_apply, val_main_v13_apply, val_main_v12_apply, val_main_v10_apply,
    val_main_v9_apply, val_main_v8_apply, val_main_v6_apply, val_main_v4_apply, val_main_v7_apply, val_main_v5_apply,
    val_main_cst_1_apply, val_main_cst_2_apply, slices, idx_keep, idx_weight, squares]
  rfl

end Cert.ReferenceIsSpec

end
-- ==== Proof.BlockIsSpec.lean ====
/-
  One grid point's block.  The body loads the four slices of a block of 128 rows (each a [1, 128, 4096] piece)
  and the weight row [1, 4096], and leaves in the output block the function `E2` of those loads (the generated
  value leg).  Read at row a, column q of the block this is

      (r(a, q) * rsqrt ((sum over k of r(a,k) * r(a,k)) / 4096 + eps)) * weight[q],

  with r(a, q) the four rectified loads added at (a, q): the specification's formula with the block's rows in
  place of the array's.  Two facts are used: a [1,128,4096] piece recast as [128,4096] is read at (0, a, q),
  and a sum along the lanes of a [128, 4096] value at row a is the plain sum over its 4096 columns.
-/
import proofs.«113902_j69784628625430_2_alg».proof.Proof.Gen.KernelIdeal.Value
import proofs.«113902_j69784628625430_2_alg».proof.Proof.RmsSpec
import Idealize.ShloMosaic.PureOps.Ideal.Laws
import Idealize.ShloMosaic.Lib.ValueIdx
import Idealize.ShloMosaic.Lib.Pipeline.Value

noncomputable section

open scoped BigOperators

namespace Cert.BlockIsSpec

open Idealize.ShloMosaic Idealize.ShloMosaic.ValueIdx Cert.RmsSpec

/-- The four rectified loads added at row a, column q of a block. -/
def brow (P0 P1 P2 P3 : (⟨3, ![1, 128, 4096]⟩ : Shape).Idx → EReal) (a : Fin 128) (q : Fin 4096) : EReal :=
  relu (P0 (ix3 (0 : Fin 1) a q)) + relu (P1 (ix3 (0 : Fin 1) a q)) + relu (P2 (ix3 (0 : Fin 1) a q)) + relu (P3 (ix3 (0 : Fin 1) a q))

/-- The specification's formula from a row value r, a row's sum of squares s and a weight w. -/
def form (r s w : EReal) : EReal :=
  r * Ideal.rsqrt (Ideal.div s (Ideal.ofBits .f32 0x45800000#32) + Ideal.ofBits .f32 0x358637BD#32) * w

/-- A [1, 128, 4096] piece recast as [128, 4096], read at (a, q), is the piece at (0, a, q). -/
theorem cast_at (P : (⟨3, ![1, 128, 4096]⟩ : Shape).Idx → EReal)
    (h : (⟨3, ![1, 128, 4096]⟩ : Shape).ShapeCasts ⟨2, ![128, 4096]⟩) (a : Fin 128) (q : Fin 4096) :
    shapeCast (⟨2, ![128, 4096]⟩ : Shape) P h (ix2 a q) = P (ix3 (0 : Fin 1) a q) :=
  shapeCast_apply P h (ix2 a q) (ix3 (0 : Fin 1) a q) (by
    rw [Shape.rowMajor_val_three, Shape.rowMajor_val_two]
    show (0 * 128 + a.val) * 4096 + q.val = a.val * 4096 + q.val
    omega)

/-- A sum along the lanes of a [128, 4096] value, started from the zero word, read at row a, is the sum over
    the row's 4096 columns. -/
theorem lane_sum (src : FVec Ideal (⟨2, ![128, 4096]⟩ : Shape) .f32)
    (h : (⟨2, ![128, 4096]⟩ : Shape).Reduces [1] ⟨1, ![128]⟩) (hφ : FKind.Formats .f32)
    (hacc : (0x00000000#32 : BitVec 32) = FKind.add.neutral .f32 hφ) (a : Fin 128) :
    multiReduction .add [1] (⟨1, ![128]⟩ : Shape) src 0x00000000#32 h hφ hacc (ix1 a) = ∑ k : Fin 4096, src (ix2 a k) := by
  refine (Ideal.multiReduction_add_single src 0x00000000#32 h hφ hacc (ix1 a)).trans ?_
  refine Finset.sum_congr rfl fun k _ => congrArg src ?_
  funext d; apply Fin.ext
  match d with
  | ⟨0, _⟩ => rfl
  | ⟨1, _⟩ => rfl

/-- The body's block function at row a, column q: the specification's formula over the block's rows. -/
theorem block_at (P0 P1 P2 P3 : Vec Ideal Cert.KernelIdeal.S1x128x4096 .f32) (P4 : Vec Ideal Cert.KernelIdeal.S1x4096 .f32)
    (a : Fin 128) (q : Fin 4096) :
    Cert.KernelIdeal.Value.E2 (F := Ideal) P0 P1 P2 P3 P4 (ix2 a q)
      = form (brow P0 P1 P2 P3 a q) (∑ k : Fin 4096, brow P0 P1 P2 P3 a k * brow P0 P1 P2 P3 a k) (P4 (ix2 (0 : Fin 1) q)) := by
  have e0 : Cert.KernelIdeal.Value.ix2_0 (ix2 a q) = ix3 (0 : Fin 1) a q := by
    funext d; match d with | ⟨0, _⟩ => rfl | ⟨1, _⟩ => rfl | ⟨2, _⟩ => rfl
  have e1 : Cert.KernelIdeal.Value.ix2_1 (ix2 a q) = ix3 (0 : Fin 1) a q := by
    funext d; match d with | ⟨0, _⟩ => rfl | ⟨1, _⟩ => rfl | ⟨2, _⟩ => rfl
  have e2 : Cert.KernelIdeal.Value.ix2_2 (ix2 a q) = ix3 (0 : Fin 1) a q := by
    funext d; match d with | ⟨0, _⟩ => rfl | ⟨1, _⟩ => rfl | ⟨2, _⟩ => rfl
  have e3 : Cert.KernelIdeal.Value.ix2_3 (ix2 a q) = ix3 (0 : Fin 1) a q := by
    funext d; match d with | ⟨0, _⟩ => rfl | ⟨1, _⟩ => rfl | ⟨2, _⟩ => rfl
  have e4 : Cert.KernelIdeal.Value.ix2_4 (ix2 a q) = ix1 a := by
    funext d; match d with | ⟨0, _⟩ => rfl
  have e5 : Cert.KernelIdeal.Value.ix2_5 (ix2 a q) = ix2 (0 : Fin 1) q := by
    funext d; match d with | ⟨0, _⟩ => rfl | ⟨1, _⟩ => rfl
  show form _ _ _ = _
  refine congr (congr (congrArg form ?_) ?_) ?_
  · -- the row value: the four loads at (0, a, q), rectified and added
    rw [e0, e1, e2, e3]; rfl
  · -- the row's sum of squares: the lane sum at row a, each square read at (0, a, k)
    rw [e4]
    refine (lane_sum _ _ _ _ a).trans ?_
    refine Finset.sum_congr rfl fun k _ => ?_
    simp only [mulf_apply, addf_apply, maximumf_apply, broadcast_apply, cast_at]
    rfl
  · rw [e5]

end Cert.BlockIsSpec

end
-- ==== Proof.PointIsSpec.lean ====
/-
  One grid point, in terms of the arrays.  If the point's input block x0 holds rows row(0..127) of X (all four
  slices, all columns) and its weight block x1 holds W, then the output block it leaves holds, at (a, q), the
  specification at (row a, q): the body reads slice k of the block through the unit rectangle at offset
  (k, 0, 0), so its four loads at (0, a, q) are X[k, row a, q], and the whole of `BlockIsSpec.block_at`
  becomes the specification's formula for row (row a).
-/
import proofs.«113902_j69784628625430_2_alg».proof.Proof.BlockIsSpec

noncomputable section

open scoped BigOperators

namespace Cert.PointIsSpec

open Idealize.ShloMosaic Idealize.ShloMosaic.ValueIdx Cert.RmsSpec Cert.BlockIsSpec

/-- A load of one slice of a [4, 128, 4096] block through the unit rectangle at offset (k, 0, 0), read at
    (0, a, q), is the block at (k, a, q). -/
theorem ld_slice (x0 : Vec Ideal (⟨3, ![4, 128, 4096]⟩ : Shape) .f32) (off : Fin 3 → Nat)
    (inb : ∀ d, off d + (⟨3, ![1, 128, 4096]⟩ : Shape).size d ≤ (⟨3, ![4, 128, 4096]⟩ : Shape).size d)
    (k : Fin 4) (h0 : off 0 = k.val) (h1 : off 1 = 0) (h2 : off 2 = 0) (a : Fin 128) (q : Fin 4096) :
    View.ld x0 (Rect.unit (s := (⟨3, ![4, 128, 4096]⟩ : Shape)) off (⟨3, ![1, 128, 4096]⟩ : Shape).size inb) (ix3 (0 : Fin 1) a q)
      = x0 (ix3 k a q) := by
  show x0 ((Rect.unit (s := (⟨3, ![4, 128, 4096]⟩ : Shape)) off (⟨3, ![1, 128, 4096]⟩ : Shape).size inb).idx (ix3 (0 : Fin 1) a q)) = _
  refine congrArg x0 ?_
  funext d; apply Fin.ext
  match d with
  | ⟨0, _⟩ => show off 0 + 1 * 0 = k.val; omega
  | ⟨1, _⟩ => show off 1 + 1 * a.val = a.val; omega
  | ⟨2, _⟩ => show off 2 + 1 * q.val = q.val; omega

/-- A load of the whole [1, 4096] weight block reads it where it is. -/
theorem ld_weight (x1 : Vec Ideal (⟨2, ![1, 4096]⟩ : Shape) .f32) (off : Fin 2 → Nat)
    (inb : ∀ d, off d + (⟨2, ![1, 4096]⟩ : Shape).size d ≤ (⟨2, ![1, 4096]⟩ : Shape).size d)
    (h0 : off 0 = 0) (h1 : off 1 = 0) (q : Fin 4096) :
    View.ld x1 (Rect.unit (s := (⟨2, ![1, 4096]⟩ : Shape)) off (⟨2, ![1, 4096]⟩ : Shape).size inb) (ix2 (0 : Fin 1) q)
      = x1 (ix2 (0 : Fin 1) q) := by
  show x1 ((Rect.unit (s := (⟨2, ![1, 4096]⟩ : Shape)) off (⟨2, ![1, 4096]⟩ : Shape).size inb).idx (ix2 (0 : Fin 1) q)) = _
  refine congrArg x1 ?_
  funext d; apply Fin.ext
  match d with
  | ⟨0, _⟩ => show off 0 + 1 * 0 = 0; omega
  | ⟨1, _⟩ => show off 1 + 1 * q.val = q.val; omega

/-- What a point leaves in its output block at (a, q), when its input block holds rows `row` of X and its
    weight block holds W: the specification at (row a, q). -/
theorem point_at (x0 : Vec Ideal Cert.KernelIdeal.S4x128x4096 .f32) (x1 : Vec Ideal Cert.KernelIdeal.S1x4096 .f32)
    (X : (⟨3, ![4, 8192, 4096]⟩ : Shape).Idx → EReal) (W : (⟨1, ![4096]⟩ : Shape).Idx → EReal) (row : Fin 128 → Fin 8192)
    (hx : ∀ (k : Fin 4) (a : Fin 128) (q : Fin 4096), x0 (ix3 k a q) = X (ix3 k (row a) q))
    (hw : ∀ q : Fin 4096, x1 (ix2 (0 : Fin 1) q) = W (ix1 q)) (a : Fin 128) (q : Fin 4096) :
    Cert.KernelIdeal.Gen.out0_2 (F := Ideal) x0 x1 (ix2 a q) = at_ X W (row a) q := by
  unfold Cert.KernelIdeal.Gen.out0_2
  refine (Cert.KernelIdeal.Value.canon2_eq _ _ _ _ _ (ix2 a q)).trans ?_
  refine (block_at _ _ _ _ _ a q).trans ?_
  have hb : ∀ k' : Fin 4096, brow (View.ld x0 Cert.KernelIdeal.Gen.r0_0) (View.ld x0 Cert.KernelIdeal.Gen.r0_1)
      (View.ld x0 Cert.KernelIdeal.Gen.r0_2) (View.ld x0 Cert.KernelIdeal.Gen.r0_3) a k' = rsum X (row a) k' := by
    intro k'
    unfold brow rsum
    rw [ld_slice x0 _ _ (0 : Fin 4) rfl rfl rfl a k', ld_slice x0 _ _ (1 : Fin 4) rfl rfl rfl a k',
      ld_slice x0 _ _ (2 : Fin 4) rfl rfl rfl a k', ld_slice x0 _ _ (3 : Fin 4) rfl rfl rfl a k', hx, hx, hx, hx]
  have hl : View.ld x1 Cert.KernelIdeal.Gen.r0_4 (ix2 (0 : Fin 1) q) = W (ix1 q) :=
    (ld_weight x1 _ _ rfl rfl q).trans (hw q)
  show form _ _ _ = form (rsum X (row a) q) (sumSq X (row a)) (W (ix1 q))
  refine congr (congr (congrArg form (hb q)) ?_) hl
  exact Finset.sum_congr rfl fun k' _ => by rw [hb k']

end Cert.PointIsSpec

end
-- ==== Proof.KernelValue.lean ====
/-
  From blocks to the array.  The grid has 64 points; point t stages rows 128 t .. 128 t + 127 of every slice of
  X (all columns), the whole weight row, and writes back rows 128 t .. 128 t + 127 of the result.  So what point t
  writes back is block t of the specification `RmsSpec.G` of the two argument arrays (`PointIsSpec.point_at`
  with row a = 128 t + a), the 64 blocks cover the result array (row r lies in block r / 128), and the array
  therefore ends holding `G`.  The weight row the region finds is the weight vector recast as [1, 4096] by the
  one host operation before the region, so its entry (0, q) is the vector's entry q.
-/
import proofs.«113902_j69784628625430_2_alg».proof.Proof.Gen.KernelIdeal.Value
import proofs.«113902_j69784628625430_2_alg».proof.Proof.PointIsSpec
import Idealize.ShloMosaic.Lib.StableHlo.Run
import Idealize.ShloMosaic.Lib.Pipeline.Value

noncomputable section

namespace Cert.KernelValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.RmsSpec

variable (m : (ℓ : Loc nD τ sig) → Buf (Elt Ideal) ℓ) (ρ : Dev nD → PrngReg)

/-- How the three windows move over the grid, decided over its 64 points: the input block follows the output
    block along the rows and is whole along slices and columns; the weight block never moves; the output block
    is whole along the columns and its row block index is below 64. -/
theorem idx_facts : ∀ t : Fin cfg0.N,
    win0_0.index t (0 : Fin 3) = 0 ∧ win0_0.index t (1 : Fin 3) = win0_2.index t (0 : Fin 2) ∧ win0_0.index t (2 : Fin 3) = 0
    ∧ win0_1.index t (0 : Fin 2) = 0 ∧ win0_1.index t (1 : Fin 2) = 0
    ∧ win0_2.index t (1 : Fin 2) = 0 ∧ win0_2.index t (0 : Fin 2) < 64 :=
  (by decide +kernel : ∀ t : Fin grid0.N, _)

/-- Every one of the 64 row blocks is some point's. -/
theorem idx_onto : ∀ b : Fin 64, ∃ t : Fin cfg0.N, win0_2.index t = ![b.val, 0] :=
  (by decide +kernel : ∀ b : Fin 64, ∃ t : Fin grid0.N, win0_2.index t = ![b.val, 0])

/-- Row a of row block b. -/
def rowOf (b : Nat) (hb : b < 64) (a : Fin 128) : Fin 8192 := ⟨b * 128 + a.val, by have := a.isLt; omega⟩

/-- The weight row as the region finds it: the weight vector recast as [1, 4096]. -/
theorem V_weight (c : Dev nD) : (V m c main_v0 : S1x4096.Idx → EReal)
    = shapeCast S1x4096 (m ((c : Thread nD τ).loc main_arg1)) shapeCasts_S4096_S1x4096 := by
  dsimp only [Gen.V, Gen.hostOps0]; after_results; rfl

/-- WHAT POINT t WRITES BACK is block t of the specification of the argument arrays. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Cert.KernelIdeal.Value.flushed2]
  obtain ⟨f0, f1, f2, f3, f4, f5, f6⟩ := idx_facts t
  -- the input block holds rows 128 t + a of every slice
  have hx : ∀ (k : Fin 4) (a : Fin 128) (q : Fin 4096),
      iblk m c 0 t (ix3 k a q)
        = (m ((c : Thread nD τ).loc main_arg0) : S4x8192x4096.Idx → EReal) (ix3 k (rowOf _ f6 a) q) := by
    intro k a q
    show V m c main_arg0 (((cfg0.win 0).blk t).view.emb (ix3 k a q)) = _
    rw [V_main_arg0]
    refine congrArg _ ?_
    funext d; apply Fin.ext
    match d with
    | ⟨0, _⟩ => show win0_0.index t (0 : Fin 3) * 4 + 1 * k.val = k.val; omega
    | ⟨1, _⟩ => show win0_0.index t (1 : Fin 3) * 128 + 1 * a.val = win0_2.index t (0 : Fin 2) * 128 + a.val; omega
    | ⟨2, _⟩ => show win0_0.index t (2 : Fin 3) * 4096 + 1 * q.val = q.val; omega
  -- the weight block holds the weight vector
  have hw : ∀ q : Fin 4096,
      iblk m c 1 t (ix2 (0 : Fin 1) q) = (m ((c : Thread nD τ).loc main_arg1) : S4096.Idx → EReal) (ix1 q) := by
    intro q
    show (V m c main_v0 : S1x4096.Idx → EReal) (((cfg0.win 1).blk t).view.emb (ix2 (0 : Fin 1) q)) = _
    have e : ((cfg0.win 1).blk t).view.emb (ix2 (0 : Fin 1) q) = ix2 (0 : Fin 1) q := by
      funext d; apply Fin.ext
      match d with
      | ⟨0, _⟩ => show win0_1.index t (0 : Fin 2) * 1 + 1 * 0 = 0; omega
      | ⟨1, _⟩ => show win0_1.index t (1 : Fin 2) * 4096 + 1 * q.val = q.val; omega
    rw [e, V_weight m c]
    exact shapeCast_apply _ _ (ix2 (0 : Fin 1) q) (ix1 q) (by
      rw [Shape.rowMajor_val_one, Shape.rowMajor_val_two]; show q.val = 0 * 4096 + q.val; omega)
  funext j
  obtain ⟨a, q, rfl⟩ : ∃ (a : Fin 128) (q : Fin 4096), j = ix2 a q := ⟨j 0, j 1, eq_ix2 j⟩
  show out0_2 (F := Ideal) (iblk m c 0 t) (iblk m c 1 t) (ix2 a q)
    = G (m ((c : Thread nD τ).loc main_arg0)) (m ((c : Thread nD τ).loc main_arg1)) (((cfg0.win 2).blk t).view.emb (ix2 a q))
  refine (Cert.PointIsSpec.point_at (iblk m c 0 t) (iblk m c 1 t) (m ((c : Thread nD τ).loc main_arg0))
    (m ((c : Thread nD τ).loc main_arg1)) (rowOf _ f6) hx hw a q).trans ?_
  -- the output block's entry (a, q) is the array's entry (128 t + a, q)
  have r0 : (((cfg0.win 2).blk t).view.emb (ix2 a q)) 0 = rowOf _ f6 a :=
    Fin.ext (show win0_2.index t (0 : Fin 2) * 128 + 1 * a.val = win0_2.index t (0 : Fin 2) * 128 + a.val by omega)
  have r1 : (((cfg0.win 2).blk t).view.emb (ix2 a q)) 1 = q :=
    Fin.ext (show win0_2.index t (1 : Fin 2) * 4096 + 1 * q.val = q.val by omega)
  show at_ _ _ (rowOf _ f6 a) q = at_ _ _ ((((cfg0.win 2).blk t).view.emb (ix2 a q)) 0) ((((cfg0.win 2).blk t).view.emb (ix2 a q)) 1)
  rw [r0, r1]

/-- An index of the result array is in point t's block iff each coordinate is in the block's range on its axis. -/
theorem mem_blk (t : Fin cfg0.N) (i : S8192x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v1).slice (win0_2.rect t)).set ↔ _
  rw [View.set_slice_whole, Rect.mem_set_unit]
  exact Iff.rfl

/-- The 64 blocks cover the result array: row r is in row block r / 128. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 4096 ≤ (i 1).val ∧ (i 1).val < win0_2.index t (1 : Fin 2) * 4096 + 4096; omega

/-- THE RESULT ARRAY after the run is the specification of the argument arrays. -/
theorem final (c : Dev nD) : (dats m 0 c).arrAt 2 cfg0.N
    = G (m ((c : Thread nD τ).loc main_arg0)) (m ((c : Thread nD τ).loc main_arg1)) :=
  (dats m 0 c).arrAt_eq_of_cover 2 (G (m ((c : Thread nD τ).loc main_arg0)) (m ((c : Thread nD τ).loc main_arg1)))
    (fun t _ => flushed_eq m c t) cover

/-- The kernel's run, read: every weakly fair execution terminates with the result array at the specification
    of the argument arrays, and the arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelValue

end
-- ==== Proof.lean ====
/-
  relu, a sum over four slices, and a row-wise RMS normalisation: the kernel against its jnp reference.

  Both programs take X : f32[4, 8192, 4096] and W : f32[4096] and return f32[8192, 4096].  On the extended reals
  both compute, at row p and column q,

      (r(p, q) * rsqrt ((sum over k of r(p, k)^2) / 4096 + eps)) * W[q],     r = relu X[0] + relu X[1] + relu X[2] + relu X[3]

  (`RmsSpec.G`), with the same f32 words for the zero of relu, for 4096 and for eps on both sides.

  * The kernel works on 64 blocks of 128 rows.  A point's output block is a function of its input blocks (the
    generated value leg's `E2`); read at an entry it is the formula above over the block's rows (`BlockIsSpec`,
    `PointIsSpec`); the blocks cover the result, so the result array ends at `G` (`KernelValue`).
  * The reference is read one host operation at a time (the generated read lemmas); its two sums start from a
    zero the kernel's do not have, and adding the zero word changes nothing (`ReferenceIsSpec`).
  * The only law used is 0 + a = a, together with the associativity built into a finite sum; it holds at the
    infinities too, so the precondition (finite inputs) is not needed for the values.
  * The ideal pass rewrote nothing, so the kernel's idealization is its own text read on the extended reals.
  * The three frames are the generated frame runs; the reference has no kernel, and its frame is its generated
    run with the result dropped.
-/
import proofs.«113902_j69784628625430_2_alg».proof.Defs
import proofs.«113902_j69784628625430_2_alg».proof.Proof.Gen.Kernel
import proofs.«113902_j69784628625430_2_alg».proof.Proof.Gen.Kernel.Skeleton
import proofs.«113902_j69784628625430_2_alg».proof.Proof.Gen.Kernel.Launch
import proofs.«113902_j69784628625430_2_alg».proof.Proof.Gen.Kernel.Points
import proofs.«113902_j69784628625430_2_alg».proof.Proof.Gen.Kernel.Frame
import proofs.«113902_j69784628625430_2_alg».proof.Proof.Gen.KernelIdeal
import proofs.«113902_j69784628625430_2_alg».proof.Proof.Gen.KernelIdeal.Skeleton
import proofs.«113902_j69784628625430_2_alg».proof.Proof.Gen.KernelIdeal.Launch
import proofs.«113902_j69784628625430_2_alg».proof.Proof.Gen.KernelIdeal.Points
import proofs.«113902_j69784628625430_2_alg».proof.Proof.Gen.KernelIdeal.Frame
import proofs.«113902_j69784628625430_2_alg».proof.Proof.Gen.ReferenceIdeal
import proofs.«113902_j69784628625430_2_alg».proof.Proof.Gen.KernelIdeal.Value
import proofs.«113902_j69784628625430_2_alg».proof.Proof.Gen.ReferenceIdeal.Run
import proofs.«113902_j69784628625430_2_alg».proof.Proof.Gen.ReferenceIdeal.Read
import proofs.«113902_j69784628625430_2_alg».proof.Proof.Gen.Pre_finite_inputs
import proofs.«113902_j69784628625430_2_alg».proof.Proof.RmsSpec
import proofs.«113902_j69784628625430_2_alg».proof.Proof.ReferenceIsSpec
import proofs.«113902_j69784628625430_2_alg».proof.Proof.KernelValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a host program: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on X and W, the kernel's result array ends at `G X W` (`KernelValue.run`) and the
    reference's at its composed term, which is `G X W` too (`ReferenceIsSpec.result_eq`). -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq (F := Ideal) _ _).trans ?_
  refine (Cert.ReferenceIsSpec.result_eq _ _).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
